-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x128 .f32) (main_arg1 : IVec S2x3200000 32) (main_arg2 : FVec F S128x16 .f32) (main_arg3 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S100000x16 : Shape := ⟨2, ![100000, 16]⟩
abbrev S10000x128 : Shape := ⟨2, ![10000, 128]⟩
abbrev S10000x16 : Shape := ⟨2, ![10000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 63
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S100000x16, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S1x16, .f32⟩
  | .hbm, ⟨62, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S10000x128_S128x16_S10000x16_1_0_0_1_n_n_wf : DotDims.WF S10000x128 S128x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S100000x16, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x16, .f32⟩
  | .hbm, ⟨81, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel's run with its RESULT kept in the post. The program is two kernel regions among stretches of host
  operations; its generated frame follows the contents of every buffer through the five segments (`Gen.W0` … `Gen.W5`)
  and then states only that the four argument arrays end as launched. The same launch over the same segments, with the
  last boundary's contents read at the result's buffer too, says what the result is: `Gen.W5` at `main_v45` — the second
  region's output array as its write-backs leave it.
-/
import proofs.«157811_j26628797236068_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

/-- The last boundary's contents at the result's buffer: the second region's output array after its write-backs. -/
theorem W5_result (c : Dev nD) : W5 m ρ c (Proc.devRef .tc main_v45) = (dat1 (V4 m ρ) c).arrAt 2 cfg1.N :=
  W5_arr m ρ c 2

/-- The first region's output array after its write-backs is what the host operations between the regions read. -/
theorem W1_linear (c : Dev nD) : W1 m ρ c (Proc.devRef .tc main_v0) = (dat0 (V0 m ρ) c).arrAt 2 cfg0.N :=
  W1_arr m ρ c 2

end Cert.KernelIdeal.Result

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«157811_j26628797236068_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«157811_j26628797236068_1_alg».proof.Proof.LibKeepdims
import proofs.«157811_j26628797236068_1_alg».proof.Proof.LibSoftmaxRows
import proofs.«157811_j26628797236068_1_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.Spec.lean ====
/-
  The mathematics both programs compute, index by index, on the extended reals.

  A graph convolution layer over 100000 nodes: every node's 128 features go through a linear map to 16 channels
  (`lin`); the rows are then mixed along the graph's edges — a gather, a scaling by the symmetric degree
  normalisation, and a sum at each edge's target — by host operations that the kernel's program and the reference
  spell the same way, so this file says nothing about them; finally each node's 16 channels get the bias added,
  are clamped at zero from below and pass through a logarithmic softmax (`fin`).

  The logarithmic softmax of a row is written the numerically careful way on both sides: the row's maximum `M` is
  subtracted first, `row j − M − log (∑ c, exp (row c − M))` (`LogSoftmaxRows.logSoftmaxAt`). The maximum is a fold of
  `max` from minus infinity, joined with minus infinity once more (both programs do exactly that), and nothing here
  needs a finite entry: the two sides are one function of the extended reals.
-/
import Idealize.ShloMosaic.PureOps.Ideal
import Idealize.ShloMosaic.Lib.ValueIdx
import proofs.«157811_j26628797236068_1_alg».proof.Proof.LibLogSoftmaxRows

noncomputable section

open scoped BigOperators

namespace Cert.Gcn

open Idealize.ShloMosaic Idealize.ShloMosaic.ValueIdx

/-- The word of the float zero and of minus infinity, as the extended reals they denote (never evaluated here:
    the same word stands on both sides). -/
abbrev zero32 : EReal := Ideal.ofBits .f32 0x00000000#32
abbrev negInf32 : EReal := Ideal.ofBits .f32 0xFF800000#32

/-- The linear layer: entry (i, j) is row i of `x` against column j of `W`. -/
def lin (x : (⟨2, ![100000, 128]⟩ : Shape).Idx → EReal) (W : (⟨2, ![128, 16]⟩ : Shape).Idx → EReal) :
    (⟨2, ![100000, 16]⟩ : Shape).Idx → EReal :=
  fun y => ∑ k : Fin 128, x (ix2 (y 0) k) * W (ix2 k (y 1))

theorem lin_apply (x : (⟨2, ![100000, 128]⟩ : Shape).Idx → EReal) (W : (⟨2, ![128, 16]⟩ : Shape).Idx → EReal)
    (i : Fin 100000) (j : Fin 16) : lin x W (ix2 i j) = ∑ k : Fin 128, x (ix2 i k) * W (ix2 k j) := rfl

/-- A node's 16 channels before the softmax: the aggregated row plus the bias, clamped at zero from below. -/
def clamped (A : (⟨2, ![100000, 16]⟩ : Shape).Idx → EReal) (b : Fin 16 → EReal) (i : Fin 100000) : Fin 16 → EReal :=
  fun c => max (A (ix2 i c) + b c) zero32

/-- The layer's last stage: bias, clamp at zero, logarithmic softmax along each node's 16 channels. -/
def fin (A : (⟨2, ![100000, 16]⟩ : Shape).Idx → EReal) (b : Fin 16 → EReal) :
    (⟨2, ![100000, 16]⟩ : Shape).Idx → EReal :=
  fun y => LogSoftmaxRows.logSoftmaxAt negInf32 negInf32 (clamped A b (y 0)) (y 1)

theorem fin_apply (A : (⟨2, ![100000, 16]⟩ : Shape).Idx → EReal) (b : Fin 16 → EReal) (i : Fin 100000) (j : Fin 16) :
    fin A b (ix2 i j) = LogSoftmaxRows.logSoftmaxAt negInf32 negInf32 (clamped A b i) j := rfl

end Cert.Gcn

end
-- ==== Proof.Region0.lean ====
/-
  The first kernel region, at the ideal values: the array it leaves is the linear layer `Cert.Gcn.lin` of the two arrays
  it reads, whatever the buffers hold when the region is entered (`V`).

  The grid has 10 points; point t reads rows 10000 t … 10000 t + 9999 of the features (all 128 columns) and the whole
  128 × 16 weight matrix, multiplies them — the operands rounded to bf16 on the way in, which is the identity on the
  extended reals — into a zero accumulator, and writes back rows 10000 t … 10000 t + 9999 of the result. Entry (p, q)
  of the block is the sum over k of feature (10000 t + p, k) times weight (k, q): block t of `lin`. The ten row blocks
  tile the array, row r lying in block r / 10000.
-/
import proofs.«157811_j26628797236068_1_alg».proof.Proof.Gen.KernelIdeal.Frame
import proofs.«157811_j26628797236068_1_alg».proof.Proof.LibPlainMatmul
import proofs.«157811_j26628797236068_1_alg».proof.Proof.Spec
import Idealize.ShloMosaic.Lib.Pipeline.Value
import Idealize.ShloMosaic.Lib.ValueIdx

noncomputable section

open scoped BigOperators

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block's entry (p, q): row p of the feature block against column q of the weights. -/
theorem product_apply (x0 : Vec Ideal S10000x128 .f32) (x1 : Vec Ideal S128x16 .f32) (p : Fin 10000) (q : Fin 16) :
    k0_pay1 x0 x1 (ix2 p q) = ∑ k : Fin 128, x0 (ix2 p k) * x1 (ix2 k q) := by
  unfold k0_pay1
  exact (PlainMatmul.plainMatmul_apply none (truncf .bf16 x0 bitsLt_bf16_f32) (truncf .bf16 x1 bitsLt_bf16_f32) p q).trans
    (Finset.sum_congr rfl fun k _ => rfl)

/-- The printed index maps over the grid: the features' and the result's row blocks move with the point, the
    weights' block stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t, entry (p, k): feature (10000 t + p, k). -/
theorem features_block (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → EReal) (ix2 r k) := by
  obtain ⟨e0, e1, -, -, -, -⟩ := index_facts t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight block at every point is the whole matrix. -/
theorem weights_block (c : Dev nD) (t : Fin cfg0.N) (k : Fin 128) (q : Fin 16) :
    (iblk0 V c 1 t : Vec Ideal S128x16 .f32) (ix2 k q) = (V c main_arg2 : S128x16.Idx → EReal) (ix2 k q) := by
  obtain ⟨-, -, e2, e3, -, -⟩ := index_facts t
  unfold iblk0
  rw [View.read_apply]
  show (V c main_arg2 : S128x16.Idx → EReal) _ = _
  refine congrArg (V c main_arg2 : S128x16.Idx → EReal) (funext fun a => Fin.ext ?_)
  match a with
  | ⟨0, _⟩ => show win0_1.index t (0 : Fin 2) * 128 + 1 * k.val = k.val; rw [e2]; omega
  | ⟨1, _⟩ => show win0_1.index t (1 : Fin 2) * 16 + 1 * q.val = q.val; rw [e3]; omega

/-- What point t writes back is block t of the linear layer of the two arrays as the region finds them. -/
theorem flushed_eq (c : Dev nD) (t : Fin cfg0.N) :
    (dat0 V c).flushed 2 t = ((cfg0.win 2).blk t).view.read (Elt Ideal)
      (Cert.Gcn.lin (V c main_arg0) (V c main_arg2) : S100000x16.Idx → EReal) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x16) zero_offsets]
  obtain ⟨-, -, -, -, e4, e5⟩ := index_facts t
  funext j
  obtain ⟨p, q, rfl⟩ : ∃ (p : Fin 10000) (q : Fin 16), j = ix2 p q := ⟨j 0, j 1, eq_ix2 j⟩
  have ht : t.val * 10000 + p.val < 100000 := by
    have := t.isLt; have hN : cfg0.N = 10 := N_0; have := p.isLt; omega
  have hemb : ((cfg0.win 2).blk t).view.emb (ix2 p q) = (ix2 ⟨t.val * 10000 + p.val, ht⟩ q : S100000x16.Idx) :=
    funext fun a => Fin.ext (by
      match a with
      | ⟨0, _⟩ => show win0_2.index t (0 : Fin 2) * 10000 + 1 * p.val = t.val * 10000 + p.val; rw [e4]; omega
      | ⟨1, _⟩ => show win0_2.index t (1 : Fin 2) * 16 + 1 * q.val = q.val; rw [e5]; omega)
  show k0_pay1 (iblk0 V c 0 t) (iblk0 V c 1 t) (ix2 p q) = Cert.Gcn.lin (V c main_arg0) (V c main_arg2) (((cfg0.win 2).blk t).view.emb (ix2 p q))
  rw [hemb, Cert.Gcn.lin_apply]
  refine (product_apply (iblk0 V c 0 t) (iblk0 V c 1 t) p q).trans (Finset.sum_congr rfl fun k _ => ?_)
  rw [features_block V c t p k ⟨t.val * 10000 + p.val, ht⟩ rfl, weights_block V c t k q]

/-- An index of the array is in point t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Row r of the array lies in the block of point r / 10000. -/
theorem cover (i : S100000x16.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  refine ⟨⟨(i 0).val / 10000, by omega⟩, flush0_2 _, ?_⟩
  obtain ⟨-, -, -, -, e4, e5⟩ := index_facts ⟨(i 0).val / 10000, by omega⟩
  rw [mem_block]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, _⟩ (1 : Fin 2) * 16 ≤ (i 1).val ∧ (i 1).val < win0_2.index ⟨(i 0).val / 10000, _⟩ (1 : Fin 2) * 16 + 16
    rw [e5]; omega

/-- The array the region leaves: the linear layer of the features and the weights as the region finds them. -/
theorem final (c : Dev nD) :
    (dat0 V c).arrAt 2 cfg0.N = (Cert.Gcn.lin (V c main_arg0) (V c main_arg2) : S100000x16.Idx → EReal) :=
  (dat0 V c).arrAt_eq_of_cover 2 _ (fun t _ => flushed_eq V c t) cover

end Cert.KernelIdeal.Linear

end
-- ==== Proof.Region1.lean ====
/-
  The second kernel region, at the ideal values: the array it leaves is the layer's last stage `Cert.Gcn.fin` of the two
  arrays it reads — the aggregated rows and the bias as a 1 × 16 row —, whatever the buffers hold when the region is
  entered (`V`).

  The grid has 10 points; point t reads rows 10000 t … 10000 t + 9999 of the aggregated array and the whole bias row,
  adds the bias to every row, clamps at zero from below, and takes the logarithmic softmax along each row's 16 channels
  (maximum, subtract, exponentiate, sum, logarithm, subtract: `LogSoftmaxRows.logSoftmaxRows_apply`); it writes back rows
  10000 t … 10000 t + 9999 of the result. Row p of the block depends on row 10000 t + p of the aggregated array alone,
  so the block is block t of `fin`, and the ten row blocks tile the array.
-/
import proofs.«157811_j26628797236068_1_alg».proof.Proof.Gen.KernelIdeal.Frame
import proofs.«157811_j26628797236068_1_alg».proof.Proof.LibLogSoftmaxRows
import proofs.«157811_j26628797236068_1_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block's entry (p, q): the logarithmic softmax, at channel q, of row p with the bias added and clamped at zero. -/
theorem finalize_apply (x0 : Vec Ideal S10000x16 .f32) (x1 : Vec Ideal S1x16 .f32) (p : Fin 10000) (q : Fin 16) :
    k1_pay1 x0 x1 (ix2 p q) = LogSoftmaxRows.logSoftmaxAt Cert.Gcn.negInf32 Cert.Gcn.negInf32
      (fun c => max (x0 (ix2 p c) + x1 (ix2 (0 : Fin 1) c)) Cert.Gcn.zero32) q := by
  unfold k1_pay1
  refine (LogSoftmaxRows.logSoftmaxRows_apply
    (maximumf (addf (shapeCast S10000x16 x0 shapeCasts_S10000x16_S10000x16)
      (broadcastTo S10000x16 (shapeCast S1x16 x1 shapeCasts_S1x16_S1x16) broadcasts_S1x16_S10000x16))
      (broadcast S10000x16 (Scalar.ofBits .f32 0x00000000#32)))
    (Scalar.ofBits .f32 0xFF800000#32) 0xFF800000#32 0x00000000#32 reduces_S10000x16_S10000 shapeCasts_S10000_S10000x1
    broadcasts_S10000x1_S10000x16 (.inl rfl) rfl rfl p q).trans ?_
  refine congrArg (fun row => LogSoftmaxRows.logSoftmaxAt Cert.Gcn.negInf32 Cert.Gcn.negInf32 row q) (funext fun c => ?_)
  show max (shapeCast S10000x16 x0 shapeCasts_S10000x16_S10000x16 (ix2 p c)
    + broadcastTo S10000x16 (shapeCast S1x16 x1 shapeCasts_S1x16_S1x16) broadcasts_S1x16_S10000x16 (ix2 p c)) Cert.Gcn.zero32 = _
  rw [shapeCast_self, shapeCast_self, broadcastTo_1b_ab_apply]

/-- The printed index maps over the grid: the aggregated rows' and the result's row blocks move with the point, the
    bias row's block stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregated block at point t, entry (p, k): entry (10000 t + p, k) of the array. -/
theorem rows_block (c : Dev nD) (t : Fin cfg1.N) (p : Fin 10000) (k : Fin 16) (r : Fin 100000)
    (hr : r.val = t.val * 10000 + p.val) :
    (iblk1 V c 0 t : Vec Ideal S10000x16 .f32) (ix2 p k) = (V c main_v43 : S100000x16.Idx → EReal) (ix2 r k) := by
  obtain ⟨e0, e1, -, -, -, -⟩ := index_facts t
  unfold iblk1
  rw [View.read_apply]
  show (V c main_v43 : S100000x16.Idx → EReal) _ = _
  refine congrArg (V c main_v43 : S100000x16.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 16 + 1 * k.val = k.val; rw [e1]; omega

/-- The bias block at every point is the whole row. -/
theorem bias_block (c : Dev nD) (t : Fin cfg1.N) (k : Fin 16) :
    (iblk1 V c 1 t : Vec Ideal S1x16 .f32) (ix2 (0 : Fin 1) k) = (V c main_v44 : S1x16.Idx → EReal) (ix2 (0 : Fin 1) k) := by
  obtain ⟨-, -, e2, e3, -, -⟩ := index_facts t
  unfold iblk1
  rw [View.read_apply]
  show (V c main_v44 : S1x16.Idx → EReal) _ = _
  refine congrArg (V c main_v44 : S1x16.Idx → EReal) (funext fun a => Fin.ext ?_)
  match a with
  | ⟨0, _⟩ => show win1_1.index t (0 : Fin 2) * 1 + 1 * 0 = 0; rw [e2]
  | ⟨1, _⟩ => show win1_1.index t (1 : Fin 2) * 16 + 1 * k.val = k.val; rw [e3]; omega

/-- What point t writes back is block t of the last stage of the two arrays as the region finds them. -/
theorem flushed_eq (c : Dev nD) (t : Fin cfg1.N) :
    (dat1 V c).flushed 2 t = ((cfg1.win 2).blk t).view.read (Elt Ideal)
      (Cert.Gcn.fin (V c main_v43) (fun k => (V c main_v44 : S1x16.Idx → EReal) (ix2 (0 : Fin 1) k)) : S100000x16.Idx → EReal) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S1x16) zero_offsets]
  obtain ⟨-, -, -, -, e4, e5⟩ := index_facts t
  funext j
  obtain ⟨p, q, rfl⟩ : ∃ (p : Fin 10000) (q : Fin 16), j = ix2 p q := ⟨j 0, j 1, eq_ix2 j⟩
  have ht : t.val * 10000 + p.val < 100000 := by
    have := t.isLt; have hN : cfg1.N = 10 := N_1; have := p.isLt; omega
  have hemb : ((cfg1.win 2).blk t).view.emb (ix2 p q) = (ix2 ⟨t.val * 10000 + p.val, ht⟩ q : S100000x16.Idx) :=
    funext fun a => Fin.ext (by
      match a with
      | ⟨0, _⟩ => show win1_2.index t (0 : Fin 2) * 10000 + 1 * p.val = t.val * 10000 + p.val; rw [e4]; omega
      | ⟨1, _⟩ => show win1_2.index t (1 : Fin 2) * 16 + 1 * q.val = q.val; rw [e5]; omega)
  show k1_pay1 (iblk1 V c 0 t) (iblk1 V c 1 t) (ix2 p q)
    = Cert.Gcn.fin (V c main_v43) (fun k => (V c main_v44 : S1x16.Idx → EReal) (ix2 (0 : Fin 1) k)) (((cfg1.win 2).blk t).view.emb (ix2 p q))
  rw [hemb, Cert.Gcn.fin_apply]
  refine (finalize_apply (iblk1 V c 0 t) (iblk1 V c 1 t) p q).trans ?_
  refine congrArg (fun row => LogSoftmaxRows.logSoftmaxAt Cert.Gcn.negInf32 Cert.Gcn.negInf32 row q) (funext fun k => ?_)
  exact congrArg₂ (fun u v : EReal => max (u + v) Cert.Gcn.zero32)
    (rows_block V c t p k ⟨t.val * 10000 + p.val, ht⟩ rfl) (bias_block V c t k)

/-- An index of the array is in point t's block iff each coordinate is in the block's range on its axis. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Row r of the array lies in the block of point r / 10000. -/
theorem cover (i : S100000x16.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 16 := (i 1).isLt
  refine ⟨⟨(i 0).val / 10000, by omega⟩, flush1_2 _, ?_⟩
  obtain ⟨-, -, -, -, e4, e5⟩ := index_facts ⟨(i 0).val / 10000, by omega⟩
  rw [mem_block]
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, _⟩ (1 : Fin 2) * 16 ≤ (i 1).val ∧ (i 1).val < win1_2.index ⟨(i 0).val / 10000, _⟩ (1 : Fin 2) * 16 + 16
    rw [e5]; omega

/-- The array the region leaves: the last stage of the aggregated rows and the bias row as the region finds them. -/
theorem final (c : Dev nD) :
    (dat1 V c).arrAt 2 cfg1.N
      = (Cert.Gcn.fin (V c main_v43) (fun k => (V c main_v44 : S1x16.Idx → EReal) (ix2 (0 : Fin 1) k)) : S100000x16.Idx → EReal) :=
  (dat1 V c).arrAt_eq_of_cover 2 _ (fun t _ => flushed_eq V c t) cover

end Cert.KernelIdeal.Finalize

end
-- ==== Proof.Glue.lean ====
/-
  The mixing along the graph's edges, as ONE function of the projected rows `h` and of the edge array, for any float
  values. Both programs compute it by the same host operations in the same order; the certificate names it once and
  never opens it: whatever the gathers, the sums at the targets and the degree normalisation do with indices out of
  range or with infinite entries, they do the same on both sides.

  In order: the edges' sources and targets, each followed by the self-loops 0 … 99999 (`src`, `dst`); an index read
  the python way, a negative one counted from the end (`wrap`); a vector of indices as a column (`col`); the
  in-degree of every node counting its self-loop (`deg`), its inverse square root where the degree is positive and 0
  elsewhere (`dis`); the weight of an edge, the product of the two at its ends (`norm`); and the sum, at every
  edge's target, of the source's row scaled by the edge's weight (`agg`).
-/
import proofs.«157811_j26628797236068_1_alg».proof.KernelIdeal

noncomputable section

namespace Cert.Gcn

open Idealize.ShloMosaic Cert.KernelIdeal Cert.KernelIdeal.Facts₀

variable {F : FTy → Type} [FloatOps F] [Cert.KernelIdeal.Facts₀]

/-- The edges' sources (row 0 of the edge array), then the self-loops. -/
def src (ei : IVec S2x3200000 32) : IVec S3300000 32 :=
  concatenate S3300000 0 [⟨S3200000, shapeCast _ (extractStridedSlice S1x3200000 ![0, 0] ei slices_S2x3200000_S1x3200000_0_0) shapeCasts_S1x3200000_S3200000⟩, ⟨S100000, iotaInDim S100000 32 0⟩] concatenates_S3200000_S100000_S3300000_d0

/-- The edges' targets (row 1 of the edge array), then the self-loops. -/
def dst (ei : IVec S2x3200000 32) : IVec S3300000 32 :=
  concatenate S3300000 0 [⟨S3200000, shapeCast _ (extractStridedSlice S1x3200000 ![1, 0] ei slices_S2x3200000_S1x3200000_1_0) shapeCasts_S1x3200000_S3200000⟩, ⟨S100000, iotaInDim S100000 32 0⟩] concatenates_S3200000_S100000_S3300000_d0

/-- A node index read the python way: a negative one has 100000 added. -/
def wrap (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- A vector of indices as a column of one-entry index vectors. -/
def col (v : IVec S3300000 32) : IVec S3300000x1 32 :=
  broadcastInDim S3300000x1 ![0] bcast_S3300000_S3300000x1_0 v

/-- Every node's in-degree, its self-loop counted: 1 summed at every edge's target. -/
def deg (ei : IVec S2x3200000 32) : FVec F S100000 .f32 :=
  Host.scatterAdd scatter_S100000_S3300000x1_S3300000_n_0_0_1 (broadcastInDim S100000 ![] bcast_S_S100000 (constant S_ .f32 0x00000000#32)) (col (dst ei)) (broadcastInDim S3300000 ![] bcast_S_S3300000 (constant S_ .f32 0x3F800000#32))

/-- The inverse square root of the degree where it is positive, 0 elsewhere. -/
def dis (ei : IVec S2x3200000 32) : FVec F S100000 .f32 :=
  select (cmpf .ogt (deg (F := F) ei) (broadcastInDim S100000 ![] bcast_S_S100000 (constant S_ .f32 0x00000000#32))) (Host.rsqrt (deg ei)) (broadcastInDim S100000 ![] bcast_S_S100000 (id (constant S_ .f32 0x00000000#32)))

/-- An edge's weight: the normalisation at its source times the one at its target. -/
def norm (ei : IVec S2x3200000 32) : FVec F S3300000 .f32 :=
  mulf (Host.gather gather_S100000_S3300000x1_S3300000_n_0_n_n_0_1_1 (dis ei) (col (wrap (src ei)))) (Host.gather gather_S100000_S3300000x1_S3300000_n_0_n_n_0_1_1 (dis ei) (col (wrap (dst ei))))

/-- The aggregation: at every edge's target, the sum of the source's row of `h` scaled by the edge's weight. -/
def agg (h : FVec F S100000x16 .f32) (ei : IVec S2x3200000 32) : FVec F S100000x16 .f32 :=
  Host.scatterAdd scatter_S100000x16_S3300000x1_S3300000x16_1_0_0_1 (broadcastInDim S100000x16 ![] bcast_S_S100000x16 (constant S_ .f32 0x00000000#32)) (col (dst ei)) (mulf (broadcastInDim S3300000x16 ![0, 1] bcast_S3300000x1_S3300000x16_0_1 (broadcastInDim S3300000x1 ![0] bcast_S3300000_S3300000x1_0 (norm ei))) (Host.gather gather_S100000x16_S3300000x1_S3300000x16_1_0_n_n_0_1_116 h (col (wrap (src ei)))))

end Cert.Gcn

end
-- ==== Proof.HostGlue.lean ====
/-
  Between the two kernel regions, for any float values: the host operations of the kernel's program read the first
  region's result `main_v0` and the edge array and leave, where the second region will read them, the aggregation
  `Cert.Gcn.agg` of the two (`main_v43`) and the bias as a 1 × 16 row (`main_v44`). No operation of the three stretches
  writes an argument array, so what they read of the edge array and of the bias is what was launched.
-/
import proofs.«157811_j26628797236068_1_alg».proof.Proof.Gen.KernelIdeal.Frame
import proofs.«157811_j26628797236068_1_alg».proof.Proof.Glue
import Idealize.ShloMosaic.Lib.StableHlo.Run

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxRecDepth 8192 in
/-- What the second region finds in `main_v43`: the aggregation of the first region's result along the edges. -/
theorem aggregated (c : Dev nD) :
    (W4 m ρ c (Proc.devRef .tc main_v43) : FVec F S100000x16 .f32)
      = Cert.Gcn.agg (W1 m ρ c (Proc.devRef .tc main_v0) : FVec F S100000x16 .f32) (W1 m ρ c (Proc.devRef .tc main_arg1) : IVec S2x3200000 32) := by
  show StableHlo.after hostOps1_2 (StableHlo.after hostOps1_1 (StableHlo.after hostOps1 (W1 m ρ c))) (Proc.devRef .tc main_v43) = _
  generalize W1 m ρ c = W
  after_results_simp
  rfl

set_option maxRecDepth 8192 in
/-- What the second region finds in `main_v44`: the bias viewed as a 1 × 16 row. -/
theorem bias_row (c : Dev nD) :
    (W4 m ρ c (Proc.devRef .tc main_v44) : FVec F S1x16 .f32)
      = shapeCast S1x16 (W1 m ρ c (Proc.devRef .tc main_arg3) : FVec F S16 .f32) shapeCasts_S16_S1x16 := by
  show StableHlo.after hostOps1_2 (StableHlo.after hostOps1_1 (StableHlo.after hostOps1 (W1 m ρ c))) (Proc.devRef .tc main_v44) = _
  generalize W1 m ρ c = W
  after_results_simp
  rfl

/-- The first region writes neither the edge array nor the bias: after it they are as launched. -/
theorem edges_kept (c : Dev nD) : W1 m ρ c (Proc.devRef .tc main_arg1) = m ((c : Thread nD τ).loc main_arg1) :=
  (W1_of_ne m ρ c main_arg1 (by decide)).trans rfl

theorem bias_kept (c : Dev nD) : W1 m ρ c (Proc.devRef .tc main_arg3) = m ((c : Thread nD τ).loc main_arg3) :=
  (W1_of_ne m ρ c main_arg3 (by decide)).trans rfl

end Cert.KernelIdeal.Between

end
-- ==== Proof.Layer.lean ====
/-
  The whole layer as ONE function of the four argument arrays, on the extended reals: the linear map of the features,
  the mixing along the graph's edges, and the last stage with the bias. Both runs are stated at this term.
-/
import proofs.«157811_j26628797236068_1_alg».proof.Proof.Spec
import proofs.«157811_j26628797236068_1_alg».proof.Proof.Glue

noncomputable section

namespace Cert.Gcn

open Idealize.ShloMosaic Idealize.ShloMosaic.ValueIdx Cert.KernelIdeal

variable [Cert.KernelIdeal.Facts₀]

/-- Features `x`, edges `ei`, weights `W`, bias `b` ↦ the layer's output. -/
def layer (x : FVec Ideal S100000x128 .f32) (ei : IVec S2x3200000 32) (W : FVec Ideal S128x16 .f32) (b : FVec Ideal S16 .f32) :
    FVec Ideal S100000x16 .f32 :=
  fin (agg (F := Ideal) (lin x W) ei) (fun k => b (ix1 k))

end Cert.Gcn

end
-- ==== Proof.KernelValue.lean ====
/-
  The idealized kernel's result as the layer of its four argument arrays. The last boundary's contents at the result's
  buffer are the second region's output array; that array is the last stage of what the region finds in the aggregated
  rows and in the bias row; the host operations between the regions put there the aggregation of the first region's
  output array and the bias as launched; and the first region's output array is the linear layer of the features and
  the weights as launched.
-/
import proofs.«157811_j26628797236068_1_alg».proof.Proof.KernelRun
import proofs.«157811_j26628797236068_1_alg».proof.Proof.Region0
import proofs.«157811_j26628797236068_1_alg».proof.Proof.Region1
import proofs.«157811_j26628797236068_1_alg».proof.Proof.HostGlue
import proofs.«157811_j26628797236068_1_alg».proof.Proof.Layer
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- What the second region finds in the aggregated rows' buffer. -/
theorem rows_found (c : Dev nD) :
    (V4 m ρ c main_v43 : FVec Ideal S100000x16 .f32)
      = Cert.Gcn.agg (F := Ideal) (Cert.Gcn.lin (m ((c : Thread nD τ).loc main_arg0)) (m ((c : Thread nD τ).loc main_arg2)))
          (m ((c : Thread nD τ).loc main_arg1)) :=
  (Between.aggregated m ρ c).trans (congrArg₂ (Cert.Gcn.agg (F := Ideal))
    ((Result.W1_linear m ρ c).trans (Linear.final (V0 m ρ) c)) (Between.edges_kept m ρ c))

/-- What the second region finds in the bias row's buffer: entry (0, k) is entry k of the bias as launched. -/
theorem bias_found (c : Dev nD) :
    (fun k : Fin 16 => (V4 m ρ c main_v44 : S1x16.Idx → EReal) (ix2 (0 : Fin 1) k))
      = fun k : Fin 16 => (m ((c : Thread nD τ).loc main_arg3) : S16.Idx → EReal) (ix1 k) :=
  funext fun k => (congrFun (Between.bias_row m ρ c) (ix2 (0 : Fin 1) k)).trans
    ((shapeCast_a_1a_apply _ shapeCasts_S16_S1x16 (0 : Fin 1) k).trans (congrFun (Between.bias_kept m ρ c) (ix1 k)))

/-- The result buffer after the run holds the layer of the arguments as launched. -/
theorem result (c : Dev nD) :
    (W5 m ρ c (Proc.devRef .tc main_v45) : FVec Ideal S100000x16 .f32)
      = Cert.Gcn.layer (m ((c : Thread nD τ).loc main_arg0)) (m ((c : Thread nD τ).loc main_arg1))
          (m ((c : Thread nD τ).loc main_arg2)) (m ((c : Thread nD τ).loc main_arg3)) :=
  (Result.W5_result m ρ c).trans ((Finalize.final (V4 m ρ) c).trans
    (congrArg₂ Cert.Gcn.fin (rows_found m ρ c) (bias_found m ρ c)))

end Cert.KernelIdeal.Whole

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.RefValue.lean ====
/-
  The reference's run, for any float values: every weakly fair execution of its @main terminates with the result at
  `lastStage (agg (x · W) edges) b` — the host's matrix product of the features and the weights, mixed along the graph's
  edges by `Cert.Gcn.agg` (the same host operations as in the kernel's program, never opened), and then the bias, the
  clamp at zero and the logarithmic softmax along each row as the reference spells them (`lastStage`) — and the
  arguments unchanged.

  @main is a list of 78 host operations. The first 57 end with the aggregation in `main_v43`; the last 21 read that
  buffer and the bias only. The list is cut there, so that the last stage is read over the aggregated array as ONE
  value and not over four copies of the 57 operations' term. The last 21 operations are the bodies of two functions jax
  outlined; every value they pass goes through a typed buffer and back, and those pairs are rewritten away first.
-/
import proofs.«157811_j26628797236068_1_alg».proof.Proof.RefRun
import proofs.«157811_j26628797236068_1_alg».proof.Proof.Gen.KernelIdeal
import proofs.«157811_j26628797236068_1_alg».proof.Proof.Glue
import proofs.«157811_j26628797236068_1_alg».proof.Proof.LibCallBuffers
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo Cert.ReferenceIdeal.ValueP

variable {F : FTy → Type} [FloatOps F]

/-- The bias added to every row, then the clamp at zero from below. -/
def clampedRows (A : FVec F S100000x16 .f32) (b : FVec F S16 .f32) : FVec F S100000x16 .f32 :=
  maximumf (addf A (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Every row's maximum (from minus infinity, joined with minus infinity once more), repeated along the row. -/
def rowMaxes (R : FVec F S100000x16 .f32) : FVec F S100000x16 .f32 :=
  broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf R (constant S_ .f32 0xFF800000#32) reducesTo_S100000x16_S100000_d1 h_S_)))

/-- The logarithmic softmax along every row: the maximum subtracted, then the logarithm of the row's sum of exponentials. -/
def logSoftmaxRows (R : FVec F S100000x16 .f32) : FVec F S100000x16 .f32 :=
  subf (subf R (rowMaxes R)) (broadcastInDim S100000x16 ![0, 1] bcast_S100000x1_S100000x16_0_1 (Host.log
    (broadcastInDim S100000x1 ![0] bcast_S100000_S100000x1_0 (Host.reduceAdd (Host.exp (subf R (rowMaxes R)))
      (constant S_ .f32 0x00000000#32) reducesTo_S100000x16_S100000_d1 h_S_))))

/-- The reference's last stage: bias, clamp, logarithmic softmax. -/
def lastStage (A : FVec F S100000x16 .f32) (b : FVec F S16 .f32) : FVec F S100000x16 .f32 :=
  logSoftmaxRows (clampedRows A b)

set_option maxRecDepth 8192 in
/-- After the first 57 operations `main_v43` holds the aggregation of the features' projection along the edges. -/
theorem aggregated (W : Valuation τ sig (Elt F)) :
    (after (List.take 57 (ops (F := F))) W (Proc.devRef .tc main_v43) : FVec F S100000x16 .f32)
      = Cert.Gcn.agg (Host.dotGeneral dot_S100000x128_S128x16_S100000x16_1_0_0_1_n_n none
          (W (Proc.devRef .tc main_arg0) : FVec F S100000x128 .f32) (W (Proc.devRef .tc main_arg2) : FVec F S128x16 .f32))
        (W (Proc.devRef .tc main_arg1) : IVec S2x3200000 32) := by
  simp only [ops, List.take_succ_cons, List.take_zero]
  after_results_simp
  rfl

set_option maxRecDepth 8192 in
/-- The first 57 operations do not write the bias. -/
theorem bias_kept (W : Valuation τ sig (Elt F)) :
    after (List.take 57 (ops (F := F))) W (Proc.devRef .tc main_arg3) = W (Proc.devRef .tc main_arg3) := by
  simp only [ops, List.take_succ_cons, List.take_zero]
  after_results_simp

set_option maxRecDepth 8192 in
/-- The last 21 operations leave in the result the last stage of what they find in `main_v43` and in the bias. -/
theorem last_part (Wa : Valuation τ sig (Elt F)) :
    (after (List.drop 57 (ops (F := F))) Wa (Proc.devRef .tc main_v48) : FVec F S100000x16 .f32)
      = lastStage (Wa (Proc.devRef .tc main_v43) : FVec F S100000x16 .f32) (Wa (Proc.devRef .tc main_arg3) : FVec F S16 .f32) := by
  simp only [ops, List.drop_succ_cons, List.drop_zero]
  after_results_simp
  simp only [TRef.ofBuf_toBuf]
  rfl

/-- The result after all 78 operations. -/
theorem result_eq (W : Valuation τ sig (Elt F)) :
    (after (ops (F := F)) W (Proc.devRef .tc main_v48) : FVec F S100000x16 .f32)
      = lastStage (Cert.Gcn.agg (Host.dotGeneral dot_S100000x128_S128x16_S100000x16_1_0_0_1_n_n none
          (W (Proc.devRef .tc main_arg0) : FVec F S100000x128 .f32) (W (Proc.devRef .tc main_arg2) : FVec F S128x16 .f32))
        (W (Proc.devRef .tc main_arg1) : IVec S2x3200000 32)) (W (Proc.devRef .tc main_arg3) : FVec F S16 .f32) := by
  have hsplit : after (ops (F := F)) W = after (List.drop 57 (ops (F := F))) (after (List.take 57 (ops (F := F))) W) := by
    rw [← after_append, List.take_append_drop]
  rw [hsplit, last_part, aggregated, bias_kept]

set_option maxRecDepth 8192 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = lastStage (Cert.Gcn.agg (Host.dotGeneral dot_S100000x128_S128x16_S100000x16_1_0_0_1_n_n none
            (m ((c.tc : Thread nD τ).loc main_arg0)) (m ((c.tc : Thread nD τ).loc main_arg2)))
          (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Hand

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«157811_j26628797236068_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.RefBridge.lean ====
/-
  The reference's result as the layer of its four argument arrays, at the ideal values.

  Its matrix product is the linear layer (entry (i, j) of the host's product is the sum over k of x (i, k) · W (k, j));
  the mixing along the edges is the same function on both sides; and its last stage is `Cert.Gcn.fin`: the bias goes
  through [16] → [1, 16] → [100000, 16], so entry (i, c) gets b c; the clamp's zero is the zero word on both sides; and
  the logarithmic softmax chain is read by `LogSoftmaxRows.hostLogSoftmaxRows_apply`, the sum started from the zero
  word, which is 0.
-/
import proofs.«157811_j26628797236068_1_alg».proof.Proof.RefValue
import proofs.«157811_j26628797236068_1_alg».proof.Proof.LibPlainDot
import proofs.«157811_j26628797236068_1_alg».proof.Proof.LibLogSoftmaxRows
import proofs.«157811_j26628797236068_1_alg».proof.Proof.Layer

noncomputable section

open scoped BigOperators

namespace Cert.ReferenceIdeal.Bridge

open Cert.ReferenceIdeal Cert.ReferenceIdeal.Gen Cert.ReferenceIdeal.Hand Idealize.ShloMosaic Idealize.ShloMosaic.ValueIdx

/-- The host's product of the features and the weights is the linear layer. -/
theorem product_eq (x : FVec Ideal S100000x128 .f32) (W : FVec Ideal S128x16 .f32) :
    Host.dotGeneral dot_S100000x128_S128x16_S100000x16_1_0_0_1_n_n none x W = Cert.Gcn.lin x W := by
  funext y
  obtain ⟨i, j, rfl⟩ : ∃ (i : Fin 100000) (j : Fin 16), y = ix2 i j := ⟨y 0, y 1, eq_ix2 y⟩
  exact PlainDot.plainDot_apply none x W i j

/-- A row of the reference's clamped array: the aggregated row plus the bias, clamped at zero. -/
theorem clampedRows_apply (A : FVec Ideal S100000x16 .f32) (b : FVec Ideal S16 .f32) (i : Fin 100000) (c : Fin 16) :
    clampedRows A b (ix2 i c) = Cert.Gcn.clamped A (fun k => b (ix1 k)) i c := by
  unfold clampedRows Cert.Gcn.clamped
  show max (A (ix2 i c) + broadcastInDim S100000x16 ![0, 1] bcast_S1x16_S100000x16_0_1 (broadcastInDim S1x16 ![1] bcast_S16_S1x16_1 b) (ix2 i c))
      (broadcastInDim S100000x16 ![] bcast_S_S100000x16 (constant (F := Ideal) S_ .f32 0x00000000#32) (ix2 i c)) = _
  rw [HostReads.bcast_row_apply, HostReads.bcast_toRow_apply,
    broadcastInDim_apply _ bcast_S_S100000x16 _ (ix2 i c) (fun a => a.elim0) (fun a => a.elim0)]
  rfl

/-- The reference's last stage is `Cert.Gcn.fin` of the aggregated array and the bias. -/
theorem lastStage_eq (A : FVec Ideal S100000x16 .f32) (b : FVec Ideal S16 .f32) :
    lastStage A b = Cert.Gcn.fin A (fun k => b (ix1 k)) := by
  funext y
  obtain ⟨i, j, rfl⟩ : ∃ (i : Fin 100000) (j : Fin 16), y = ix2 i j := ⟨y 0, y 1, eq_ix2 y⟩
  unfold lastStage logSoftmaxRows rowMaxes
  refine (LogSoftmaxRows.hostLogSoftmaxRows_apply (clampedRows A b)
    (broadcastInDim S100000 ![] bcast_S_S100000 (constant (F := Ideal) S_ .f32 0xFF800000#32))
    (constant (F := Ideal) S_ .f32 0xFF800000#32) (constant (F := Ideal) S_ .f32 0x00000000#32)
    reducesTo_S100000x16_S100000_d1 (by decide) h_S_ bcast_S100000_S100000x1_0 bcast_S100000x1_S100000x16_0_1
    Ideal.ofBits_zero_f32 i j).trans ?_
  rw [Cert.Gcn.fin_apply]
  have hlo : broadcastInDim S100000 ![] bcast_S_S100000 (constant (F := Ideal) S_ .f32 0xFF800000#32) (ix1 i) = Cert.Gcn.negInf32 :=
    broadcastInDim_apply _ bcast_S_S100000 _ (ix1 i) (fun a => a.elim0) (fun a => a.elim0)
  have hrow : (fun c => clampedRows A b (ix2 i c)) = Cert.Gcn.clamped A (fun k => b (ix1 k)) i :=
    funext fun c => clampedRows_apply A b i c
  rw [hlo, hrow]
  rfl

/-- The reference's result term is the layer of the arguments. -/
theorem result_eq (x : FVec Ideal S100000x128 .f32) (ei : IVec S2x3200000 32) (W : FVec Ideal S128x16 .f32) (b : FVec Ideal S16 .f32) :
    lastStage (Cert.Gcn.agg (F := Ideal) (Host.dotGeneral dot_S100000x128_S128x16_S100000x16_1_0_0_1_n_n none x W) ei) b
      = Cert.Gcn.layer x ei W b := by
  rw [product_eq, lastStage_eq]
  rfl

end Cert.ReferenceIdeal.Bridge

end
-- ==== Proof.lean ====
/-
  A graph convolution layer over 100000 nodes and 3200000 edges, against its jnp reference, on the extended reals.

  Both programs compute, from the features x : [100000, 128], the edges, the weights W : [128, 16] and the bias b : [16],
      log_softmax (relu (agg (x · W) + b))
  along each node's 16 channels, where `agg` adds the self-loops, gathers every edge's source row, scales it by the product
  of the inverse square roots of the two endpoint degrees and sums at the edge's target. The kernel's program takes the
  product x · W in a first kernel region (ten row blocks, the operands rounded to bf16 on the way into the matrix unit —
  the identity on the extended reals — and accumulated from zero), runs `agg` by the very host operations the reference
  uses, and applies the bias, the clamp and the logarithmic softmax in a second kernel region (ten row blocks again). The
  reference takes x · W by one host matrix product and the last stage by host operations.

  So the two results are one function of the arguments (`Cert.Gcn.layer`):
  * the kernel's matrix product of a row block and the host's matrix product are the same sums over k (`Cert.Gcn.lin`);
  * `agg` is the same term on both sides and is never opened — no finiteness, no range of the indices is needed;
  * each side's last stage, read at (i, j), is the logarithmic softmax at channel j of row i with the bias added and
    clamped at zero (`Cert.Gcn.fin`): the row maximum is the same fold of `max` from minus infinity on both sides, the
    kernel's row sum starts from nothing and the reference's from the zero word, which is 0.
  The precondition (finite inputs) is not used. The idealization rewrote no operation, so `preserves` is trivial; the two
  kernel programs' frames are the generated ones, the reference's frame is its run with the result dropped.
-/
import proofs.«157811_j26628797236068_1_alg».proof.Defs
import proofs.«157811_j26628797236068_1_alg».proof.Proof.Gen.Kernel
import proofs.«157811_j26628797236068_1_alg».proof.Proof.Gen.Kernel.Skeleton
import proofs.«157811_j26628797236068_1_alg».proof.Proof.Gen.Kernel.Launch
import proofs.«157811_j26628797236068_1_alg».proof.Proof.Gen.Kernel.Points
import proofs.«157811_j26628797236068_1_alg».proof.Proof.Gen.Kernel.Frame
import proofs.«157811_j26628797236068_1_alg».proof.Proof.Gen.KernelIdeal
import proofs.«157811_j26628797236068_1_alg».proof.Proof.Gen.KernelIdeal.Skeleton
import proofs.«157811_j26628797236068_1_alg».proof.Proof.Gen.KernelIdeal.Launch
import proofs.«157811_j26628797236068_1_alg».proof.Proof.Gen.KernelIdeal.Points
import proofs.«157811_j26628797236068_1_alg».proof.Proof.Gen.KernelIdeal.Frame
import proofs.«157811_j26628797236068_1_alg».proof.Proof.Gen.ReferenceIdeal
import proofs.«157811_j26628797236068_1_alg».proof.Proof.Gen.Pre_finite_inputs
import proofs.«157811_j26628797236068_1_alg».proof.Proof.KernelValue
import proofs.«157811_j26628797236068_1_alg».proof.Proof.RefBridge
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the layer of the arguments in their result. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Whole.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]
    exact Cert.ReferenceIdeal.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
